-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .f32) (main_arg1 : FVec F S8x4096x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  main_v8
-- ==== Kernel.lean ====
abbrev S8x4096x512 : Shape := ⟨3, ![8, 4096, 512]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S1x2048x512 : Shape := ⟨3, ![1, 2048, 512]⟩
abbrev S1x512x512 : Shape := ⟨3, ![1, 512, 512]⟩
abbrev S1x2048x1 : Shape := ⟨3, ![1, 2048, 1]⟩
abbrev S1x1x512 : Shape := ⟨3, ![1, 1, 512]⟩
abbrev S2048x512 : Shape := ⟨2, ![2048, 512]⟩
abbrev S512x512 : Shape := ⟨2, ![512, 512]⟩
abbrev S2048x1 : Shape := ⟨2, ![2048, 1]⟩
abbrev S1x512 : Shape := ⟨2, ![1, 512]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S8x4096x512, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1x512x512, .f32⟩
  | .local _ .vmem, ⟨4, _⟩ => ⟨S1x2048x1, .f32⟩
  | .local _ .vmem, ⟨5, _⟩ => ⟨S1x2048x1, .f32⟩
  | .local _ .vmem, ⟨6, _⟩ => ⟨S1x1x512, .f32⟩
  | .local _ .vmem, ⟨7, _⟩ => ⟨S1x1x512, .f32⟩
  | .local _ .vmem, ⟨8, _⟩ => ⟨S1x2048x512, .f32⟩
  | .local _ .vmem, ⟨9, _⟩ => ⟨S1x2048x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  reducesTo_S8x4096x512_S8x4096_d2 : S8x4096x512.ReducesTo [2] S8x4096
  h_S_ : 0 < S_.numel
  bcast_S8x4096_S8x4096x1_0_1 : S8x4096.BroadcastsInDim S8x4096x1 (![0, 1] : Fin 2 → Fin S8x4096x1.rank)
  transposes_S8x4096x1_S8x1x4096_0_2_1 : S8x4096x1.Transposes [0, 2, 1] S8x1x4096
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  bitsLt_bf16_f32 : FTy.bits .bf16 < FTy.bits .f32
  broadcasts_S2048x1_S2048x512 : S2048x1.Broadcasts S2048x512
  broadcasts_S1x512_S2048x512 : S1x512.Broadcasts S2048x512
  shapeCasts_S2048x512_S1x2048x512 : S2048x512.ShapeCasts S1x2048x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x4096x512.size a
  hwx0_0 : ∀ i : grid0.Coords, EltTy.bits .f32 = 32 ∨ (Rect.block (s := S8x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x4096x512.size a
  hwx0_1 : ∀ i : grid0.Coords, EltTy.bits .f32 = 32 ∨ (Rect.block (s := S8x4096x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S8x4096x1.size a
  hwx0_2 : ∀ i : grid0.Coords, EltTy.bits .f32 = 32 ∨ (Rect.block (s := S8x4096x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x4096.size a
  hwx0_3 : ∀ i : grid0.Coords, EltTy.bits .f32 = 32 ∨ (Rect.block (s := S8x1x4096) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S8x4096x4096.size a
  hwx0_4 : ∀ i : grid0.Coords, EltTy.bits .f32 = 32 ∨ (Rect.block (s := S8x4096x4096) S1x2048x512.size (cc0_transform_4 i) (hinb0_4 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg1) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S_, .f32⟩
  | .hbm, ⟨4, _⟩ => ⟨S8x4096, .f32⟩
  | .hbm, ⟨5, _⟩ => ⟨S8x4096x512, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8x4096x512_S8x4096_d2 : S8x4096x512.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  dot_S8x4096x512_S8x4096x512_S8x4096x4096_2_2_1_1_0_0_wf : DotDims.WF S8x4096x512 S8x4096x512 S8x4096x4096 [2] [2] [1] [1] [0] [0]

variable [Facts₀]

def dot_S8x4096x512_S8x4096x512_S8x4096x4096_2_2_1_1_0_0 : DotDims S8x4096x512 S8x4096x512 S8x4096x4096 where
  lhsContracting := [2]
  rhsContracting := [2]
  lhsNonContracting := [1]
  rhsNonContracting := [1]
  lhsBatch := [0]
  rhsBatch := [0]
  wf := dot_S8x4096x512_S8x4096x512_S8x4096x4096_2_2_1_1_0_0_wf

class Facts : Prop extends Facts₀ where

variable [Facts]
-- ==== Proof.Spec.lean ====
/-
  The score both programs compute, as one function of the two argument arrays.

  For batch b, query row r and key row s, with q = queries[b, r, :] and k = keys[b, s, :] (512 features each),
      score = 1 / (1 + sqrt (max ((|q|² + |k|²) − 2 · ⟨q, k⟩) ε)),
  where |x|² is the sum of the squares of a row started from the zero word, ⟨q, k⟩ the inner product of the two rows,
  and 1, 2, ε are the f32 words 0x3F800000, 0x40000000, 0x2B8CBCCC read on the extended reals. The expansion
  |q − k|² = |q|² + |k|² − 2⟨q, k⟩ is used by both programs in this same grouping, so no law of arithmetic
  beyond the order of a finite sum is needed to compare them.
-/
import Idealize.ShloMosaic.PureOps.Ideal
import Idealize.ShloMosaic.Lib.ValueIdx

noncomputable section

open scoped BigOperators

namespace Cert.Metric

open Idealize.ShloMosaic Idealize.ShloMosaic.ValueIdx

/-- The squared norm of row `(b, r)` of an `[8, 4096, 512]` array: the zero word plus the sum of the squares of its
    512 entries. -/
def sqNorm (x : FVec Ideal ⟨3, ![8, 4096, 512]⟩ .f32) (b : Fin 8) (r : Fin 4096) : EReal :=
  Ideal.ofBits .f32 0x00000000#32 + ∑ k : Fin 512, x (ix3 b r k) * x (ix3 b r k)

/-- The inner product of row `(b, r)` of `q` with row `(b, s)` of `key`. -/
def inner (q key : FVec Ideal ⟨3, ![8, 4096, 512]⟩ .f32) (b : Fin 8) (r s : Fin 4096) : EReal :=
  ∑ k : Fin 512, q (ix3 b r k) * key (ix3 b s k)

/-- From the two squared norms and the inner product to the score: `1 / (1 + sqrt (max ((nq + nk) − 2·ip) ε))`. -/
def scoreOf (nq nk ip : EReal) : EReal :=
  Ideal.div (Ideal.ofBits .f32 0x3F800000#32)
    (Ideal.ofBits .f32 0x3F800000#32
      + Ideal.sqrt (max ((nq + nk) - Ideal.ofBits .f32 0x40000000#32 * ip) (Ideal.ofBits .f32 0x2B8CBCCC#32)))

/-- The whole `[8, 4096, 4096]` result: entry `(b, r, s)` scores query row `(b, r)` against key row `(b, s)`. -/
def score (keys queries : FVec Ideal ⟨3, ![8, 4096, 512]⟩ .f32) : FVec Ideal ⟨3, ![8, 4096, 4096]⟩ .f32 := fun i =>
  scoreOf (sqNorm queries (i 0) (i 1)) (sqNorm keys (i 0) (i 2)) (inner queries keys (i 0) (i 1) (i 2))

end Cert.Metric

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.Body.lean ====
/-
  One entry of the block the kernel body stores.

  The body loads a `[1, 2048, 512]` block of query rows, a `[1, 512, 512]` block of key rows, the column
  `[1, 2048, 1]` of the query rows' squared norms and the row `[1, 1, 512]` of the key rows' squared norms. It
  multiplies the query block by the transpose of the key block (both contracted over the 512 features), spreads the
  column along the lanes and the row along the sublanes, and stores `1 / (1 + sqrt (max ((nq + nk) − 2·qk) ε))`.
  Read at entry `(p, q)` of the block this is the score of the block's query row `p` against its key row `q`.
-/
import proofs.«120192_j6597069767502_2_alg».proof.Proof.Gen.KernelIdeal.Skeleton
import proofs.«120192_j6597069767502_2_alg».proof.Proof.Spec
import proofs.«120192_j6597069767502_2_alg».proof.Proof.LibKeepdims
import proofs.«120192_j6597069767502_2_alg».proof.Proof.LibTransposedRhsDot
import Idealize.ShloMosaic.Lib.ValueLayout
import Idealize.ShloMosaic.Lib.ValueIdx
import Idealize.ShloMosaic.PureOps.Ideal.Laws

noncomputable section

open scoped BigOperators

namespace Cert.Metric

open Idealize.ShloMosaic Idealize.ShloMosaic.ValueIdx Cert.KernelIdeal Cert.KernelIdeal.Gen

/-- The printed dimension record of the body's matrix product is the product with a transposed right operand. -/
theorem dot_eq : dot_S2048x512_S512x512_S2048x512_1_1_0_0_n_n = DotDims.transposedRhs 2048 512 512 := rfl

/-- Entry `(p, q)` of the stored block. -/
theorem pay_apply (x0 : Vec Ideal S1x2048x512 .f32) (x1 : Vec Ideal S1x512x512 .f32) (x2 : Vec Ideal S1x2048x1 .f32)
    (x3 : Vec Ideal S1x1x512 .f32) (u : Fin 1) (p : Fin 2048) (q : Fin 512) :
    k0_pay1 (F := Ideal) x0 x1 x2 x3 (ix3 u p q)
      = scoreOf (x2 (ix3 (0 : Fin 1) p (0 : Fin 1))) (x3 (ix3 (0 : Fin 1) (0 : Fin 1) q))
          (∑ k : Fin 512, x0 (ix3 (0 : Fin 1) p k) * x1 (ix3 (0 : Fin 1) q k)) := by
  unfold k0_pay1
  rw [shapeCast_ab_1ab_apply]
  show Ideal.div _ (_ + Ideal.sqrt (max ((broadcastTo S2048x512 _ _ (ix2 p q) + broadcastTo S2048x512 _ _ (ix2 p q))
    - _ * matmul (F := Ideal) _ none _ _ _ (ix2 p q)) _)) = _
  rw [Cert.Keepdims.broadcastTo_a1_ab_apply, broadcastTo_1b_ab_apply, shapeCast_1ab_ab_apply, shapeCast_1ab_ab_apply,
    dot_eq, Cert.LibTransposedRhsDot.matmul_zero_apply]
  have hsum : (∑ k : Fin 512, truncf .bf16 (shapeCast S2048x512 x0 shapeCasts_S1x2048x512_S2048x512) bitsLt_bf16_f32 (ix2 p k)
        * truncf .bf16 (shapeCast S512x512 x1 shapeCasts_S1x512x512_S512x512) bitsLt_bf16_f32 (ix2 q k))
      = ∑ k : Fin 512, x0 (ix3 (0 : Fin 1) p k) * x1 (ix3 (0 : Fin 1) q k) :=
    Finset.sum_congr rfl fun k _ => by
      rw [truncf_apply, truncf_apply, shapeCast_1ab_ab_apply, shapeCast_1ab_ab_apply]
  rw [hsum]
  rfl

end Cert.Metric

end
-- ==== Proof.RowNorm.lean ====
/-
  The host's sum of squares along the feature axis, read at one row.

  Both programs form the squared norm of every row of an `[8, 4096, 512]` array on the host: the array is multiplied
  by itself entry by entry and summed over its last axis from the zero word. On the extended reals that sum has no
  order, so at row `(b, r)` it is the zero word plus the sum over the 512 features of the squared entry: `sqNorm`.
-/
import proofs.«120192_j6597069767502_2_alg».proof.Proof.Spec
import Idealize.ShloMosaic.Lib.ValueIdx
import Idealize.ShloMosaic.PureOps.Ideal.Laws

noncomputable section

open scoped BigOperators

namespace Cert.Metric

open Idealize.ShloMosaic Idealize.ShloMosaic.ValueIdx

/-- The host's sum over the last axis of the entrywise square, from the zero word, at row `(b, r)`. -/
theorem hostRowSumSq (x : FVec Ideal ⟨3, ![8, 4096, 512]⟩ .f32)
    (h' : (⟨3, ![8, 4096, 512]⟩ : Shape).ReducesTo [2] ⟨2, ![8, 4096]⟩) (hu : 0 < (⟨0, ![]⟩ : Shape).numel)
    (b : Fin 8) (r : Fin 4096) :
    Host.reduceAdd (F := Ideal) (mulf x x) (constant (F := Ideal) ⟨0, ![]⟩ .f32 0x00000000#32) h' hu (ix2 b r)
      = sqNorm x b r := by
  have h : (⟨3, ![8, 4096, 512]⟩ : Shape).Reduces [2] ⟨2, ![8, 4096]⟩ := by decide
  unfold sqNorm
  simp only [Host.reduceAdd, Ideal.hostReduceAdd_def]
  rw [Ideal.hostReduceAdd_single h' h]
  refine congrArg (_ + ·) (Finset.sum_congr rfl fun k _ => ?_)
  have e : h.lift (ix2 b r) k = ix3 b r k :=
    funext fun a => Fin.ext (by match a with | ⟨0, _⟩ => rfl | ⟨1, _⟩ => rfl | ⟨2, _⟩ => rfl)
  rw [mulf_apply, e]
  rfl

end Cert.Metric

end
-- ==== Proof.Prefix.lean ====
/-
  What the region finds in the two norm arrays.

  Before the region the host writes the queries' squared norms as the column array `[8, 4096, 1]` (the row sums kept
  with a unit last axis) and the keys' squared norms as the row array `[8, 1, 4096]` (the same column array with its
  last two axes swapped). Entry `(b, r, 0)` of the first is the squared norm of query row `(b, r)`, entry `(b, 0, s)`
  of the second the squared norm of key row `(b, s)`.
-/
import proofs.«120192_j6597069767502_2_alg».proof.Proof.Gen.KernelIdeal.Frame
import proofs.«120192_j6597069767502_2_alg».proof.Proof.RowNorm
import Idealize.ShloMosaic.Lib.StableHlo.Run
import Idealize.ShloMosaic.Lib.Pipeline.Value
import Idealize.ShloMosaic.Lib.ValueIdx

noncomputable section

open scoped BigOperators

namespace Cert.Metric

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The column of row sums spread to `[8, 4096, 1]`, at `j`, is the squared norm of row `(j 0, j 1)`. -/
theorem column_apply (x : FVec Ideal S8x4096x512 .f32) (j : S8x4096x1.Idx) :
    broadcastInDim S8x4096x1 ![0, 1] bcast_S8x4096_S8x4096x1_0_1
        (Host.reduceAdd (F := Ideal) (mulf x x) (constant (F := Ideal) S_ .f32 0x00000000#32) reducesTo_S8x4096x512_S8x4096_d2 h_S_) j
      = sqNorm x (j 0) (j 1) := by
  refine (broadcastInDim_apply _ bcast_S8x4096_S8x4096x1_0_1 _ j (ix2 (j 0) (j 1)) (fun a => match a with
    | ⟨0, _⟩ => by show (j 0).val = if (8 : Nat) = 1 then 0 else (j 0).val; rw [if_neg (by decide)]
    | ⟨1, _⟩ => by show (j 1).val = if (4096 : Nat) = 1 then 0 else (j 1).val; rw [if_neg (by decide)])).trans ?_
  exact hostRowSumSq x _ _ (j 0) (j 1)

/-- The queries' norm array as the region finds it. -/
theorem V_qnorm (c : Dev nD) (j : S8x4096x1.Idx) :
    (V m c main_v2 : S8x4096x1.Idx → EReal) j = sqNorm (m ((c : Thread nD τ).loc main_arg1)) (j 0) (j 1) := by
  have e : (V m c main_v2 : S8x4096x1.Idx → EReal)
      = broadcastInDim S8x4096x1 ![0, 1] bcast_S8x4096_S8x4096x1_0_1
          (Host.reduceAdd (F := Ideal) (mulf (m ((c : Thread nD τ).loc main_arg1)) (m ((c : Thread nD τ).loc main_arg1)))
            (constant (F := Ideal) S_ .f32 0x00000000#32) reducesTo_S8x4096x512_S8x4096_d2 h_S_) := by
    dsimp only [V, hostOps0]; after_results
  rw [e]
  exact column_apply _ j

/-- The keys' norm array as the region finds it: the column array with its last two axes swapped. -/
theorem V_knorm (c : Dev nD) (j : S8x1x4096.Idx) :
    (V m c main_v6 : S8x1x4096.Idx → EReal) j = sqNorm (m ((c : Thread nD τ).loc main_arg0)) (j 0) (j 2) := by
  have e : (V m c main_v6 : S8x1x4096.Idx → EReal)
      = transpose S8x1x4096 [0, 2, 1] (broadcastInDim S8x4096x1 ![0, 1] bcast_S8x4096_S8x4096x1_0_1
          (Host.reduceAdd (F := Ideal) (mulf (m ((c : Thread nD τ).loc main_arg0)) (m ((c : Thread nD τ).loc main_arg0)))
            (constant (F := Ideal) S_ .f32 0x00000000#32) reducesTo_S8x4096x512_S8x4096_d2 h_S_))
          transposes_S8x4096x1_S8x1x4096_0_2_1 := by
    dsimp only [V, hostOps0]; after_results
  rw [e]
  refine (transpose_apply _ _ transposes_S8x4096x1_S8x1x4096_0_2_1 j (ix3 (j 0) (j 2) (j 1)) (fun b => match b with
    | ⟨0, _⟩ => rfl
    | ⟨1, _⟩ => rfl
    | ⟨2, _⟩ => rfl)).trans ?_
  exact column_apply _ _

end Cert.Metric

end
-- ==== Proof.Blocks.lean ====
/-
  From the blocks to the whole result array.

  The grid has 8 · 2 · 8 points `(b, qi, ki)`. At a point the region stages rows `2048·qi … 2048·qi + 2047` of batch
  `b` of the queries and of their norm column, rows `512·ki … 512·ki + 511` of batch `b` of the keys and the matching
  stretch of their norm row, and writes back block `(b, qi, ki)` of the `[8, 4096, 4096]` result, of extents
  `[1, 2048, 512]`. Entry `(0, p, q)` of that block lies at `(b, 2048·qi + p, 512·ki + q)` of the result, and the body
  computes there the score of query row `(b, 2048·qi + p)` against key row `(b, 512·ki + q)`: the block is the
  restriction of the one function `score`. The 128 blocks tile the result, so the array ends holding `score`.
-/
import proofs.«120192_j6597069767502_2_alg».proof.Proof.Gen.KernelIdeal.Value
import proofs.«120192_j6597069767502_2_alg».proof.Proof.Body
import proofs.«120192_j6597069767502_2_alg».proof.Proof.Prefix
import Idealize.ShloMosaic.Lib.Pipeline.Value
import Idealize.ShloMosaic.Lib.ValueIdx

noncomputable section

open scoped BigOperators

namespace Cert.Metric

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem zero_offsets : (![0, 0, 0] : Fin 3 → Nat) = fun _ => 0 := funext fun a => by fin_cases a <;> rfl

/-- A squared norm depends on the row's coordinates only through their values. -/
theorem sqNorm_congr (x : FVec Ideal ⟨3, ![8, 4096, 512]⟩ .f32) {b b' : Fin 8} {r r' : Fin 4096}
    (hb : b.val = b'.val) (hr : r.val = r'.val) : sqNorm x b r = sqNorm x b' r' := by
  rw [Fin.ext hb, Fin.ext hr]

/-- The score depends only on the two squared norms and the inner product. -/
theorem scoreOf_congr {a a' b b' c c' : EReal} (ha : a = a') (hb : b = b') (hc : c = c') :
    scoreOf a b c = scoreOf a' b' c' := by rw [ha, hb, hc]

/-- If row `p` of a staged query block is row `(b, r)` of the queries and row `q` of a staged key block is row
    `(b, s)` of the keys, feature by feature, the block rows' inner product is that of the two array rows. -/
theorem rows_inner (x0 : Vec Ideal S1x2048x512 .f32) (x1 : Vec Ideal S1x512x512 .f32)
    (Q K : FVec Ideal ⟨3, ![8, 4096, 512]⟩ .f32) (p : Fin 2048) (q : Fin 512) (b : Fin 8) (r s : Fin 4096)
    (h0 : ∀ k : Fin 512, x0 (ix3 (0 : Fin 1) p k) = Q (ix3 b r k))
    (h1 : ∀ k : Fin 512, x1 (ix3 (0 : Fin 1) q k) = K (ix3 b s k)) :
    (∑ k : Fin 512, x0 (ix3 (0 : Fin 1) p k) * x1 (ix3 (0 : Fin 1) q k)) = inner Q K b r s := by
  unfold inner
  exact Finset.sum_congr rfl fun k _ => by rw [h0, h1]

/-- The stored block at any of its indices: the score of the block's query row `y 1` against its key row `y 2`. -/
theorem pay_at (x0 : Vec Ideal S1x2048x512 .f32) (x1 : Vec Ideal S1x512x512 .f32) (x2 : Vec Ideal S1x2048x1 .f32)
    (x3 : Vec Ideal S1x1x512 .f32) (y : S1x2048x512.Idx) :
    k0_pay1 (F := Ideal) x0 x1 x2 x3 y
      = scoreOf (x2 (ix3 (0 : Fin 1) (y 1) (0 : Fin 1))) (x3 (ix3 (0 : Fin 1) (0 : Fin 1) (y 2)))
          (∑ k : Fin 512, x0 (ix3 (0 : Fin 1) (y 1) k) * x1 (ix3 (0 : Fin 1) (y 2) k)) := by
  obtain ⟨u, p, q, rfl⟩ : ∃ (u : Fin 1) (p : Fin 2048) (q : Fin 512), y = ix3 u p q := ⟨y 0, y 1, y 2, eq_ix3 y⟩
  exact pay_apply x0 x1 x2 x3 u p q

/-- The printed index maps over the grid: every input window moves with the output window — the queries and their norm
    column on the batch and query-tile axes, the keys and their norm row on the batch and key-tile axes. -/
theorem idx_facts : ∀ t : Fin cfg0.N,
    win0_0.index t (0 : Fin 3) = win0_4.index t (0 : Fin 3) ∧ win0_0.index t (1 : Fin 3) = win0_4.index t (1 : Fin 3)
      ∧ win0_0.index t (2 : Fin 3) = 0
    ∧ win0_1.index t (0 : Fin 3) = win0_4.index t (0 : Fin 3) ∧ win0_1.index t (1 : Fin 3) = win0_4.index t (2 : Fin 3)
      ∧ win0_1.index t (2 : Fin 3) = 0
    ∧ win0_2.index t (0 : Fin 3) = win0_4.index t (0 : Fin 3) ∧ win0_2.index t (1 : Fin 3) = win0_4.index t (1 : Fin 3)
      ∧ win0_2.index t (2 : Fin 3) = 0
    ∧ win0_3.index t (0 : Fin 3) = win0_4.index t (0 : Fin 3) ∧ win0_3.index t (1 : Fin 3) = 0
      ∧ win0_3.index t (2 : Fin 3) = win0_4.index t (2 : Fin 3) :=
  (by decide +kernel : ∀ t : Fin grid0.N, _)

/-- Every block index `(b, qi, ki)` is some grid point's. -/
theorem idx_onto : ∀ (q0 : Fin 8) (q1 : Fin 2) (q2 : Fin 8), ∃ t : Fin cfg0.N, win0_4.index t = ![q0.val, q1.val, q2.val] :=
  (by decide +kernel : ∀ (q0 : Fin 8) (q1 : Fin 2) (q2 : Fin 8), ∃ t : Fin grid0.N, win0_4.index t = ![q0.val, q1.val, q2.val])

/-- What point `t` writes back is block `t` of `score` of the two argument arrays. -/
theorem flushed_eq (c : Dev nD) (t : Fin cfg0.N) :
    (dats m 0 c).flushed 4 t = ((cfg0.win 4).blk t).view.read (Elt Ideal)
      (score (m ((c : Thread nD τ).loc main_arg0)) (m ((c : Thread nD τ).loc main_arg1))) := by
  rw [flushed4]
  unfold out0_4
  rw [View.canon_unit_zero zero_offsets]
  simp only [View.ld_unit_zero (S := S1x2048x512) zero_offsets, View.ld_unit_zero (S := S1x512x512) zero_offsets,
    View.ld_unit_zero (S := S1x2048x1) zero_offsets, View.ld_unit_zero (S := S1x1x512) zero_offsets]
  obtain ⟨a0, a1, a2, b0, b1, b2, c0, c1, c2, d0, d1, d2⟩ := idx_facts t
  funext y
  show k0_pay1 (F := Ideal) (iblk m c 0 t) (iblk m c 1 t) (iblk m c 2 t) (iblk m c 3 t) y
    = score (m ((c : Thread nD τ).loc main_arg0)) (m ((c : Thread nD τ).loc main_arg1)) (((cfg0.win 4).blk t).view.emb y)
  refine (pay_at (iblk m c 0 t) (iblk m c 1 t) (iblk m c 2 t) (iblk m c 3 t) y).trans ?_
  have hy0 : (y 0).val < 1 := (y 0).isLt
  show scoreOf _ _ _ = scoreOf
    (sqNorm (m ((c : Thread nD τ).loc main_arg1)) ((((cfg0.win 4).blk t).view.emb y) 0) ((((cfg0.win 4).blk t).view.emb y) 1))
    (sqNorm (m ((c : Thread nD τ).loc main_arg0)) ((((cfg0.win 4).blk t).view.emb y) 0) ((((cfg0.win 4).blk t).view.emb y) 2))
    (inner (m ((c : Thread nD τ).loc main_arg1)) (m ((c : Thread nD τ).loc main_arg0))
      ((((cfg0.win 4).blk t).view.emb y) 0) ((((cfg0.win 4).blk t).view.emb y) 1) ((((cfg0.win 4).blk t).view.emb y) 2))
  refine scoreOf_congr ?_ ?_ (rows_inner _ _ _ _ _ _ _ _ _ (fun k => ?_) (fun k => ?_))
  · -- the norm column's entry is the squared norm of the query row under the output entry
    refine (V_qnorm m c _).trans (sqNorm_congr _ ?_ ?_)
    · show win0_2.index t (0 : Fin 3) * 1 + 1 * 0 = win0_4.index t (0 : Fin 3) * 1 + 1 * (y 0).val; omega
    · show win0_2.index t (1 : Fin 3) * 2048 + 1 * (y 1).val = win0_4.index t (1 : Fin 3) * 2048 + 1 * (y 1).val; omega
  · -- the norm row's entry is the squared norm of the key row under the output entry
    refine (V_knorm m c _).trans (sqNorm_congr _ ?_ ?_)
    · show win0_3.index t (0 : Fin 3) * 1 + 1 * 0 = win0_4.index t (0 : Fin 3) * 1 + 1 * (y 0).val; omega
    · show win0_3.index t (2 : Fin 3) * 512 + 1 * (y 2).val = win0_4.index t (2 : Fin 3) * 512 + 1 * (y 2).val; omega
  · -- the staged query block's row is the query row under the output entry
    show V m c main_arg1 (((cfg0.win 0).blk t).view.emb (ix3 (0 : Fin 1) (y 1) k)) = _
    rw [V_main_arg1]
    refine congrArg _ ?_
    funext a; apply Fin.ext
    match a with
    | ⟨0, _⟩ => show win0_0.index t (0 : Fin 3) * 1 + 1 * 0 = win0_4.index t (0 : Fin 3) * 1 + 1 * (y 0).val; omega
    | ⟨1, _⟩ => show win0_0.index t (1 : Fin 3) * 2048 + 1 * (y 1).val = win0_4.index t (1 : Fin 3) * 2048 + 1 * (y 1).val; omega
    | ⟨2, _⟩ => show win0_0.index t (2 : Fin 3) * 512 + 1 * k.val = k.val; omega
  · -- the staged key block's row is the key row under the output entry
    show V m c main_arg0 (((cfg0.win 1).blk t).view.emb (ix3 (0 : Fin 1) (y 2) k)) = _
    rw [V_main_arg0]
    refine congrArg _ ?_
    funext a; apply Fin.ext
    match a with
    | ⟨0, _⟩ => show win0_1.index t (0 : Fin 3) * 1 + 1 * 0 = win0_4.index t (0 : Fin 3) * 1 + 1 * (y 0).val; omega
    | ⟨1, _⟩ => show win0_1.index t (1 : Fin 3) * 512 + 1 * (y 2).val = win0_4.index t (2 : Fin 3) * 512 + 1 * (y 2).val; omega
    | ⟨2, _⟩ => show win0_1.index t (2 : Fin 3) * 512 + 1 * k.val = k.val; omega

/-- An index of the result is in point `t`'s block iff each coordinate is in the block's range on its axis. -/
theorem mem_blk (t : Fin cfg0.N) (i : S8x4096x4096.Idx) :
    i ∈ ((cfg0.win 4).blk t).view.set ↔ ∀ a : Fin 3, win0_4.index t a * S1x2048x512.size a ≤ (i a).val
      ∧ (i a).val < win0_4.index t a * S1x2048x512.size a + S1x2048x512.size a := by
  show i ∈ ((View.whole main_v7).slice (win0_4.rect t)).set ↔ _
  rw [View.set_slice_whole, Rect.mem_set_unit]
  exact Iff.rfl

/-- The blocks tile the result: entry `(b, r, s)` is in the block of the point with block index `(b, r / 2048, s / 512)`. -/
theorem cover (i : S8x4096x4096.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 4096 := (i 2).isLt
  obtain ⟨t, ht⟩ := idx_onto ⟨(i 0).val, hi0⟩ ⟨(i 1).val / 2048, by omega⟩ ⟨(i 2).val / 512, by omega⟩
  have q0 : win0_4.index t (0 : Fin 3) = (i 0).val := congrFun ht 0
  have q1 : win0_4.index t (1 : Fin 3) = (i 1).val / 2048 := congrFun ht 1
  have q2 : win0_4.index t (2 : Fin 3) = (i 2).val / 512 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 512 ≤ (i 2).val ∧ (i 2).val < win0_4.index t (2 : Fin 3) * 512 + 512; omega

/-- The result array after the run is `score` of the two argument arrays. -/
theorem final (c : Dev nD) : (dats m 0 c).arrAt 4 cfg0.N
    = score (m ((c : Thread nD τ).loc main_arg0)) (m ((c : Thread nD τ).loc main_arg1)) :=
  (dats m 0 c).arrAt_eq_of_cover 4 (score (m ((c : Thread nD τ).loc main_arg0)) (m ((c : Thread nD τ).loc main_arg1)))
    (fun t _ => flushed_eq m c t) cover

/-- The kernel's run, read: the result array at `score` of the argument arrays, the arguments unchanged. -/
theorem run : θ_run defs (onTc (τ := τ) (main (F := Ideal))) ⟨m, fun _ => 0, ρ⟩ fun r => ∀ c : Dev nD,
      r.2.mem ((c : Thread nD τ).loc main_v7)
        = score (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Metric

end
-- ==== Proof.Reference.lean ====
/-
  The reference's result is the score.

  The reference forms the two squared norms by a host sum over the feature axis, the inner products by one batched
  product contracting the feature axis of both arrays, spreads the norms over the `[8, 4096, 4096]` result (the query
  norm along the key axis, the key norm along the query axis) and applies `1 / (1 + sqrt (max (· − 2·) ε))` entry by
  entry. Read at entry `(b, r, s)` every stage lands on rows `(b, r)` of the queries and `(b, s)` of the keys.
-/
import proofs.«120192_j6597069767502_2_alg».proof.Proof.Gen.ReferenceIdeal.Read
import proofs.«120192_j6597069767502_2_alg».proof.Proof.Spec
import Idealize.ShloMosaic.Lib.ValueIdx

noncomputable section

open scoped BigOperators

namespace Cert.Metric

open Idealize.ShloMosaic Idealize.ShloMosaic.ValueIdx Cert.ReferenceIdeal Cert.ReferenceIdeal.Read

/-- The query norm's stages read row `(i 0, i 1)`, feature `k`. -/
theorem idx_qnorm (i : S8x4096x4096.Idx) (k : Fin 512) :
    idx_main_v1 (idx_main_v5 (idx_main_v7 i)) k = ix3 (i 0) (i 1) k :=
  funext fun a => by match a with | ⟨0, _⟩ => rfl | ⟨1, _⟩ => rfl | ⟨2, _⟩ => rfl

/-- The key norm's stages read row `(i 0, i 2)`, feature `k`. -/
theorem idx_knorm (i : S8x4096x4096.Idx) (k : Fin 512) :
    idx_main_v3 (idx_main_v6 (idx_main_v8 i)) k = ix3 (i 0) (i 2) k :=
  funext fun a => by match a with | ⟨0, _⟩ => rfl | ⟨1, _⟩ => rfl | ⟨2, _⟩ => rfl

/-- The product's left operand is read at row `(i 0, i 1)`, -/
theorem idx_lhs (i : S8x4096x4096.Idx) (k : Fin 512) : lidx_main_v4 i k = ix3 (i 0) (i 1) k :=
  funext fun a => by match a with | ⟨0, _⟩ => rfl | ⟨1, _⟩ => rfl | ⟨2, _⟩ => rfl

/-- and its right operand at row `(i 0, i 2)`. -/
theorem idx_rhs (i : S8x4096x4096.Idx) (k : Fin 512) : ridx_main_v4 i k = ix3 (i 0) (i 2) k :=
  funext fun a => by match a with | ⟨0, _⟩ => rfl | ⟨1, _⟩ => rfl | ⟨2, _⟩ => rfl

/-- The reference's last stage, as a function of the keys `x0` and the queries `x1`, is the score. -/
theorem ref_score (x0 x1 : FVec Ideal ⟨3, ![8, 4096, 512]⟩ .f32) :
    val_main_v19 (F := Ideal) x0 x1 = score x0 x1 := by
  funext i
  rw [val_main_v19_apply, val_main_v18_apply, val_main_cst_4_apply, val_main_v17_apply, val_main_v16_apply,
    val_main_cst_3_apply, val_main_v15_apply, val_main_v14_apply, val_main_v13_apply, val_main_cst_2_apply,
    val_main_v12_apply, val_main_v11_apply, val_main_v10_apply, val_main_cst_1_apply, val_main_v4_apply,
    val_main_v9_apply, val_main_v7_apply, val_main_v5_apply, val_main_v1_apply, val_main_v8_apply,
    val_main_v6_apply, val_main_v3_apply, val_main_cst_apply, val_main_cst_0_apply]
  simp only [val_main_v0_apply, val_main_v2_apply, idx_qnorm, idx_knorm, idx_lhs, idx_rhs]
  rfl

end Cert.Metric

end
-- ==== Proof.lean ====
/-
  The certificate of the metric scorer: for every batch `b`, query row `r` and key row `s` both programs return
      1 / (1 + sqrt (max ((|q|² + |k|²) − 2 · ⟨q, k⟩) ε)),     q = queries[b, r, :], k = keys[b, s, :].
  The kernel forms the two squared norms on the host, then tiles the `[8, 4096, 4096]` result into `[2048, 512]` blocks;
  each block multiplies a tile of query rows by the transpose of a tile of key rows and applies the formula entry by
  entry. The reference computes the norms, one batched product and the formula on whole arrays. On the extended reals a
  change of float format is the identity and a finite sum has no order, and both programs group the formula the same
  way, so the two results are one function of the arguments (`Cert.Metric.score`); no finiteness of the inputs is used.
  The idealization rewrote nothing, so it preserves the kernel trivially; the three programs' runs (termination, no
  fault, arguments unchanged) are the generated ones.
-/
import proofs.«120192_j6597069767502_2_alg».proof.Defs
import proofs.«120192_j6597069767502_2_alg».proof.Proof.Gen.Kernel
import proofs.«120192_j6597069767502_2_alg».proof.Proof.Gen.Kernel.Skeleton
import proofs.«120192_j6597069767502_2_alg».proof.Proof.Gen.Kernel.Launch
import proofs.«120192_j6597069767502_2_alg».proof.Proof.Gen.Kernel.Points
import proofs.«120192_j6597069767502_2_alg».proof.Proof.Gen.Kernel.Frame
import proofs.«120192_j6597069767502_2_alg».proof.Proof.Gen.KernelIdeal
import proofs.«120192_j6597069767502_2_alg».proof.Proof.Gen.KernelIdeal.Skeleton
import proofs.«120192_j6597069767502_2_alg».proof.Proof.Gen.KernelIdeal.Launch
import proofs.«120192_j6597069767502_2_alg».proof.Proof.Gen.KernelIdeal.Points
import proofs.«120192_j6597069767502_2_alg».proof.Proof.Gen.KernelIdeal.Frame
import proofs.«120192_j6597069767502_2_alg».proof.Proof.Gen.ReferenceIdeal
import proofs.«120192_j6597069767502_2_alg».proof.Proof.Gen.Pre_finite_inputs
import proofs.«120192_j6597069767502_2_alg».proof.Proof.Gen.KernelIdeal.Value
import proofs.«120192_j6597069767502_2_alg».proof.Proof.Gen.ReferenceIdeal.Run
import proofs.«120192_j6597069767502_2_alg».proof.Proof.Gen.ReferenceIdeal.Read
import proofs.«120192_j6597069767502_2_alg».proof.Proof.Blocks
import proofs.«120192_j6597069767502_2_alg».proof.Proof.Reference
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at `score` of its arguments (its blocks tile the array and
    each is a restriction of `score`) and the reference's at its last stage, which is `score` of the same arrays. -/
theorem algebraic : Cert.algebraic_KernelIdeal_ReferenceIdeal := by
  intro m ρ m' ρ' _ hagree
  refine ⟨_, Cert.Metric.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Metric.ref_score, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
